-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8 : Shape := ⟨1, ![8]⟩
abbrev S8x5632x2048 : Shape := ⟨3, ![8, 5632, 2048]⟩
abbrev S8x2048x5632 : Shape := ⟨3, ![8, 2048, 5632]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8x5632x2048 : S_.BroadcastsInDim S8x5632x2048 (![] : Fin 0 → Fin S8x5632x2048.rank)
  reducesTo_S8x5632x2048_S_d0_1_2 : S8x5632x2048.ReducesTo [0, 1, 2] S_
  bcast_S_S8x2048x5632 : S_.BroadcastsInDim S8x2048x5632 (![] : Fin 0 → Fin S8x2048x5632.rank)
  reducesTo_S8x2048x5632_S_d0_1_2 : S8x2048x5632.ReducesTo [0, 1, 2] S_

variable [Facts]

def fn_part1 {F : FTy → Type} [FloatOps F] (main_v13 : IVec S_ 1) (main_v16 : IVec S8x2048x5632 1) : IVec S_ 1 :=
  let main_c_5 : IVec S_ 1 := constantI S_ 1 1#1
  let main_v17 : IVec S_ 1 := (fun x v => Host.reduce IntOp.andi x v reducesTo_S8x2048x5632_S_d0_1_2 h_S_) main_v16 main_c_5
  let main_v18 : IVec S_ 1 := andi main_v13 main_v17
  main_v18

def fn {F : FTy → Type} [FloatOps F] (main_arg0 : FVec F S8192x2048 .f32) (main_arg1 : IVec S8 32) (main_arg2 : FVec F S8x5632x2048 .f32) (main_arg3 : FVec F S8x5632x2048 .f32) (main_arg4 : FVec F S8x2048x5632 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8x5632x2048 .f32 := Host.absf main_arg2
  let main_cst_0 : FVec F S_ .f32 := constant S_ .f32 0x7F800000#32
  let main_v5 : FVec F S8x5632x2048 .f32 := broadcastInDim S8x5632x2048 ![] bcast_S_S8x5632x2048 main_cst_0
  let main_v6 : IVec S8x5632x2048 1 := cmpf .olt main_v4 main_v5
  let main_c_1 : IVec S_ 1 := constantI S_ 1 1#1
  let main_v7 : IVec S_ 1 := (fun x v => Host.reduce IntOp.andi x v reducesTo_S8x5632x2048_S_d0_1_2 h_S_) main_v6 main_c_1
  let main_v8 : IVec S_ 1 := andi main_v3 main_v7
  let main_v9 : FVec F S8x5632x2048 .f32 := Host.absf main_arg3
  let main_cst_2 : FVec F S_ .f32 := constant S_ .f32 0x7F800000#32
  let main_v10 : FVec F S8x5632x2048 .f32 := broadcastInDim S8x5632x2048 ![] bcast_S_S8x5632x2048 main_cst_2
  let main_v11 : IVec S8x5632x2048 1 := cmpf .olt main_v9 main_v10
  let main_c_3 : IVec S_ 1 := constantI S_ 1 1#1
  let main_v12 : IVec S_ 1 := (fun x v => Host.reduce IntOp.andi x v reducesTo_S8x5632x2048_S_d0_1_2 h_S_) main_v11 main_c_3
  let main_v13 : IVec S_ 1 := andi main_v8 main_v12
  let main_v14 : FVec F S8x2048x5632 .f32 := Host.absf main_arg4
  let main_cst_4 : FVec F S_ .f32 := constant S_ .f32 0x7F800000#32
  let main_v15 : FVec F S8x2048x5632 .f32 := broadcastInDim S8x2048x5632 ![] bcast_S_S8x2048x5632 main_cst_4
  let main_v16 : IVec S8x2048x5632 1 := cmpf .olt main_v14 main_v15
  fn_part1 (F := F) main_v13 main_v16
-- ==== Kernel.lean ====
abbrev S8192x2048 : Shape := ⟨2, ![8192, 2048]⟩
abbrev S8 : Shape := ⟨1, ![8]⟩
abbrev S8x5632x2048 : Shape := ⟨3, ![8, 5632, 2048]⟩
abbrev S8x2048x5632 : Shape := ⟨3, ![8, 2048, 5632]⟩
abbrev S8x1024x2048 : Shape := ⟨3, ![8, 1024, 2048]⟩
abbrev S1x512x2048 : Shape := ⟨3, ![1, 512, 2048]⟩
abbrev S1x2048x512 : Shape := ⟨3, ![1, 2048, 512]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 12
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8, .i32⟩
  | .hbm, ⟨2, _⟩ => ⟨S8x5632x2048, .f32⟩
  | .hbm, ⟨3, _⟩ => ⟨S8x5632x2048, .f32⟩
  | .hbm, ⟨4, _⟩ => ⟨S8x2048x5632, .f32⟩
  | .hbm, ⟨5, _⟩ => ⟨S8x1024x2048, .f32⟩
  | .hbm, ⟨6, _⟩ => ⟨S8x1024x2048, .bf16⟩
  | .hbm, ⟨7, _⟩ => ⟨S8x5632x2048, .bf16⟩
  | .hbm, ⟨8, _⟩ => ⟨S8x5632x2048, .bf16⟩
  | .hbm, ⟨9, _⟩ => ⟨S8x2048x5632, .bf16⟩
  | .hbm, ⟨10, _⟩ => ⟨S8x1024x2048, .f32⟩
  | .hbm, ⟨11, _⟩ => ⟨S8192x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1x512x2048, .bf16⟩
  | .local _ .vmem, ⟨5, _⟩ => ⟨S1x512x2048, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x512x2048, .f32⟩
  | .local _ .vmem, ⟨9, _⟩ => ⟨S1x512x2048, .f32⟩
  | .local _ .vmem, ⟨10, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 11], ![false, false, false]⟩

def k0_cond2 (i : grid0.Coords) : BitVec 1 :=
  let arg2 : BitVec 32 := BitVec.ofNat 32 (i 2).val
  let c10_i32 : BitVec 32 := 10#32
  let v23 : BitVec 1 := Scalar.cmpi .eq arg2 c10_i32
  let v24 : BitVec 32 := Scalar.extui v23
  let c0_i32_18 : BitVec 32 := 0#32
  let v25 : BitVec 1 := Scalar.cmpi .ne v24 c0_i32_18
  v25

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S8192x2048_S8x1024x2048 : S8192x2048.ShapeCasts S8x1024x2048
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  shapeCasts_S512x2048_S1x512x2048 : S512x2048.ShapeCasts S1x512x2048
  shapeCasts_S8x1024x2048_S8192x2048 : S8x1024x2048.ShapeCasts S8192x2048
  dot_S512x2048_S512x2048_S512x512_1_1_0_0_n_n_wf : DotDims.WF S512x2048 S512x2048 S512x512 [1] [1] [0] [0] [] []
  dot_S512x512_S2048x512_S512x2048_1_1_0_0_n_n_wf : DotDims.WF S512x512 S2048x512 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x1024x2048.size a
  hwx0_0 : ∀ i : grid0.Coords, EltTy.bits .bf16 = 32 ∨ (Rect.block (s := S8x1024x2048) S1x512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x2048.size a ≤ S8x5632x2048.size a
  hwx0_1 : ∀ i : grid0.Coords, EltTy.bits .bf16 = 32 ∨ (Rect.block (s := S8x5632x2048) S1x512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2048.size a ≤ S8x5632x2048.size a
  hwx0_2 : ∀ i : grid0.Coords, EltTy.bits .bf16 = 32 ∨ (Rect.block (s := S8x5632x2048) S1x512x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x512.size a ≤ S8x2048x5632.size a
  hwx0_3 : ∀ i : grid0.Coords, EltTy.bits .bf16 = 32 ∨ (Rect.block (s := S8x2048x5632) S1x2048x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S8x1024x2048.size a
  hwx0_4 : ∀ i : grid0.Coords, EltTy.bits .f32 = 32 ∨ (Rect.block (s := S8x1024x2048) S1x512x2048.size (cc0_transform_4 i) (hinb0_4 i)).WholeWords (EltTy.packing .f32)

variable [Facts₀]

def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf
def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf

abbrev win0_0 : Pipeline.Window sig grid0 :=
  Pipeline.Window.ofSpec (Memref.whole main_v1) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x2048x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x2048 : Shape := ⟨2, ![8192, 2048]⟩
abbrev S8 : Shape := ⟨1, ![8]⟩
abbrev S8x5632x2048 : Shape := ⟨3, ![8, 5632, 2048]⟩
abbrev S8x2048x5632 : Shape := ⟨3, ![8, 2048, 5632]⟩
abbrev S8x1024x2048 : Shape := ⟨3, ![8, 1024, 2048]⟩
abbrev S8x1024x5632 : Shape := ⟨3, ![8, 1024, 5632]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8, .i32⟩
  | .hbm, ⟨2, _⟩ => ⟨S8x5632x2048, .f32⟩
  | .hbm, ⟨3, _⟩ => ⟨S8x5632x2048, .f32⟩
  | .hbm, ⟨4, _⟩ => ⟨S8x2048x5632, .f32⟩
  | .hbm, ⟨5, _⟩ => ⟨S8x1024x2048, .f32⟩
  | .hbm, ⟨6, _⟩ => ⟨S8x1024x5632, .f32⟩
  | .hbm, ⟨7, _⟩ => ⟨S8x1024x5632, .f32⟩
  | .hbm, ⟨8, _⟩ => ⟨S8x1024x5632, .f32⟩
  | .hbm, ⟨9, _⟩ => ⟨S8x1024x5632, .f32⟩
  | .hbm, ⟨10, _⟩ => ⟨S_, .f32⟩
  | .hbm, ⟨11, _⟩ => ⟨S8x1024x5632, .f32⟩
  | .hbm, ⟨12, _⟩ => ⟨S8x1024x5632, .f32⟩
  | .hbm, ⟨13, _⟩ => ⟨S_, .f32⟩
  | .hbm, ⟨14, _⟩ => ⟨S8x1024x5632, .f32⟩
  | .hbm, ⟨15, _⟩ => ⟨S8x1024x5632, .f32⟩
  | .hbm, ⟨16, _⟩ => ⟨S8x1024x5632, .f32⟩
  | .hbm, ⟨17, _⟩ => ⟨S8x1024x5632, .f32⟩
  | .hbm, ⟨18, _⟩ => ⟨S8x1024x2048, .f32⟩
  | .hbm, ⟨19, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]

class Facts₀ : Prop where
  shapeCasts_S8192x2048_S8x1024x2048 : S8192x2048.ShapeCasts S8x1024x2048
  bcast_S_S8x1024x5632 : S_.BroadcastsInDim S8x1024x5632 (![] : Fin 0 → Fin S8x1024x5632.rank)
  shapeCasts_S8x1024x2048_S8192x2048 : S8x1024x2048.ShapeCasts S8192x2048
  dot_S8x1024x2048_S8x5632x2048_S8x1024x5632_2_2_1_1_0_0_wf : DotDims.WF S8x1024x2048 S8x5632x2048 S8x1024x5632 [2] [2] [1] [1] [0] [0]
  dot_S8x1024x5632_S8x2048x5632_S8x1024x2048_2_2_1_1_0_0_wf : DotDims.WF S8x1024x5632 S8x2048x5632 S8x1024x2048 [2] [2] [1] [1] [0] [0]

variable [Facts₀]

def dot_S8x1024x2048_S8x5632x2048_S8x1024x5632_2_2_1_1_0_0 : DotDims S8x1024x2048 S8x5632x2048 S8x1024x5632 where
  lhsContracting := [2]
  rhsContracting := [2]
  lhsNonContracting := [1]
  rhsNonContracting := [1]
  lhsBatch := [0]
  rhsBatch := [0]
  wf := dot_S8x1024x2048_S8x5632x2048_S8x1024x5632_2_2_1_1_0_0_wf
def dot_S8x1024x5632_S8x2048x5632_S8x1024x2048_2_2_1_1_0_0 : DotDims S8x1024x5632 S8x2048x5632 S8x1024x2048 where
  lhsContracting := [2]
  rhsContracting := [2]
  lhsNonContracting := [1]
  rhsNonContracting := [1]
  lhsBatch := [0]
  rhsBatch := [0]
  wf := dot_S8x1024x5632_S8x2048x5632_S8x1024x2048_2_2_1_1_0_0_wf

class Facts : Prop extends Facts₀ where

variable [Facts]
-- ==== Proof.LibSumTiles.lean ====
/-
  A finite sum cut into consecutive tiles.

  A function f on the first N naturals is extended by zero to every natural; psum f n is the sum of the first n
  values. The partial sum over no rows is zero, the partial sum over all N rows is the sum over Fin N, and the
  partial sum grows by one tile of T consecutive rows at a time:  psum f (n + T) = psum f n + ∑ p < T, f (n + p).
  So a sum over Fin (T · k) accumulated tile by tile, first tile to last, is the whole sum. Only the commutative
  monoid laws of + are used; nothing here depends on a program.
-/
import Mathlib.Algebra.BigOperators.Fin
import Mathlib.Algebra.BigOperators.Intervals

open scoped BigOperators

namespace Cert.SumTiles

variable {β : Type*} [AddCommMonoid β] {N : ℕ}

/-- A function on the first N naturals, extended by zero. -/
def ext0 (f : Fin N → β) (n : ℕ) : β := if h : n < N then f ⟨n, h⟩ else 0

theorem ext0_of_lt (f : Fin N → β) (n : ℕ) (h : n < N) : ext0 f n = f ⟨n, h⟩ := dif_pos h

/-- The sum of the first n values of f (the values past N count as zero). -/
def psum (f : Fin N → β) (n : ℕ) : β := ∑ r ∈ Finset.range n, ext0 f r

/-- No rows: zero. -/
theorem psum_zero (f : Fin N → β) : psum f 0 = 0 := Finset.sum_range_zero _

/-- All N rows: the sum over Fin N. -/
theorem psum_full (f : Fin N → β) : psum f N = ∑ r : Fin N, f r := by
  unfold psum
  rw [← Fin.sum_univ_eq_sum_range (fun r => ext0 f r) N]
  exact Finset.sum_congr rfl fun r _ => ext0_of_lt f r.val r.isLt

/-- One more tile of T consecutive rows n, n + 1, …, n + T − 1, all below N. -/
theorem psum_add_tile (f : Fin N → β) (n T : ℕ) (h : n + T ≤ N) :
    psum f (n + T) = psum f n + ∑ p : Fin T, f ⟨n + p.val, by have := p.isLt; omega⟩ := by
  unfold psum
  rw [Finset.sum_range_add, ← Fin.sum_univ_eq_sum_range (fun p => ext0 f (n + p)) T]
  exact congrArg _ (Finset.sum_congr rfl fun p _ => ext0_of_lt f _ _)

/-- The first tile, from nothing: the zero in front is kept, as an accumulator started at zero has it. -/
theorem psum_first_tile (f : Fin N → β) (T : ℕ) (h : T ≤ N) :
    psum f T = 0 + ∑ p : Fin T, f ⟨p.val, by have := p.isLt; omega⟩ := by
  have e := psum_add_tile f 0 T (by omega)
  rw [psum_zero] at e
  simp only [Nat.zero_add] at e
  exact e

end Cert.SumTiles
-- ==== Proof.Spec.lean ====
/-
  The gated expert product as one function of its four arrays.

  Eight experts each own 1024 consecutive tokens of 2048 features. For expert e, token t and hidden unit h the two
  projections are
      p(e,t,h) = Σ_k x(e,t,k) · w1(e,h,k)        q(e,t,h) = Σ_k x(e,t,k) · w3(e,h,k)        (k over the 2048 features),
  the gated activation is  a(e,t,h) = (p · σ(p)) · q  with σ the logistic function  σ(p) = 1 / (1 + e^(−p)),  and
      out(e,t,d) = Σ_h a(e,t,h) · w2(e,d,h)                                                (h over the 5632 hidden units).
  All values are extended reals.

  The sum over h can be taken 512 hidden units at a time: with the partial sums  S_n = Σ_{h < n} a(e,t,h) · w2(e,d,h),
      S_0 = 0,      S_{512(j+1)} = S_{512 j} + Σ_{r < 512} a(e,t,512 j + r) · w2(e,d,512 j + r),      S_5632 = out(e,t,d),
  which uses only that + is commutative and associative, so it holds at infinite values too.
-/
import Idealize.ShloMosaic.PureOps.Ideal
import Idealize.ShloMosaic.Lib.ValueIdx
import proofs.«130477_j644245095186_1_alg».proof.Proof.LibSumTiles

noncomputable section

open scoped BigOperators

namespace Cert.Moe

open Idealize.ShloMosaic Idealize.ShloMosaic.ValueIdx

/-- Tokens grouped by expert: [8, 1024, 2048]. -/
abbrev SX : Shape := ⟨3, ![8, 1024, 2048]⟩
/-- The two up-projections' weights: [8, 5632, 2048]. -/
abbrev SW : Shape := ⟨3, ![8, 5632, 2048]⟩
/-- The down-projection's weights: [8, 2048, 5632]. -/
abbrev SD : Shape := ⟨3, ![8, 2048, 5632]⟩

/-- Token (e,t) projected on hidden unit h by the weights w. -/
def proj (x : SX.Idx → EReal) (w : SW.Idx → EReal) (e : Fin 8) (t : Fin 1024) (h : Fin 5632) : EReal :=
  ∑ k : Fin 2048, x (ix3 e t k) * w (ix3 e h k)

/-- The gate: p · σ(p) times q. -/
def gate (p q : EReal) : EReal := (p * Ideal.logistic p) * q

/-- The gated activation of token (e,t) at hidden unit h. -/
def act (x : SX.Idx → EReal) (w1 w3 : SW.Idx → EReal) (e : Fin 8) (t : Fin 1024) (h : Fin 5632) : EReal :=
  gate (proj x w1 e t h) (proj x w3 e t h)

/-- Hidden unit h's contribution to feature d of token (e,t). -/
def term (x : SX.Idx → EReal) (w1 w3 : SW.Idx → EReal) (w2 : SD.Idx → EReal) (e : Fin 8) (t : Fin 1024) (d : Fin 2048)
    (h : Fin 5632) : EReal :=
  act x w1 w3 e t h * w2 (ix3 e d h)

/-- Feature d of token (e,t) of the result. -/
def outAt (x : SX.Idx → EReal) (w1 w3 : SW.Idx → EReal) (w2 : SD.Idx → EReal) (e : Fin 8) (t : Fin 1024) (d : Fin 2048) :
    EReal :=
  ∑ h : Fin 5632, term x w1 w3 w2 e t d h

/-- The result array. -/
def out (x : SX.Idx → EReal) (w1 w3 : SW.Idx → EReal) (w2 : SD.Idx → EReal) : SX.Idx → EReal :=
  fun i => outAt x w1 w3 w2 (i 0) (i 1) (i 2)

theorem out_ix3 (x : SX.Idx → EReal) (w1 w3 : SW.Idx → EReal) (w2 : SD.Idx → EReal) (e : Fin 8) (t : Fin 1024)
    (d : Fin 2048) : out x w1 w3 w2 (ix3 e t d) = outAt x w1 w3 w2 e t d := rfl

/-- The sum of the first n hidden units' contributions. -/
def part (x : SX.Idx → EReal) (w1 w3 : SW.Idx → EReal) (w2 : SD.Idx → EReal) (e : Fin 8) (t : Fin 1024) (d : Fin 2048)
    (n : ℕ) : EReal :=
  SumTiles.psum (term x w1 w3 w2 e t d) n

/-- All 5632 hidden units: the result. -/
theorem part_full (x : SX.Idx → EReal) (w1 w3 : SW.Idx → EReal) (w2 : SD.Idx → EReal) (e : Fin 8) (t : Fin 1024)
    (d : Fin 2048) : part x w1 w3 w2 e t d 5632 = outAt x w1 w3 w2 e t d :=
  SumTiles.psum_full _

/-- The first tile of 512 hidden units, added to zero. -/
theorem part_first (x : SX.Idx → EReal) (w1 w3 : SW.Idx → EReal) (w2 : SD.Idx → EReal) (e : Fin 8) (t : Fin 1024)
    (d : Fin 2048) :
    part x w1 w3 w2 e t d 512
      = 0 + ∑ r : Fin 512, term x w1 w3 w2 e t d ⟨r.val, by have := r.isLt; omega⟩ :=
  SumTiles.psum_first_tile _ 512 (by norm_num)

/-- One more tile of 512 hidden units. -/
theorem part_next (x : SX.Idx → EReal) (w1 w3 : SW.Idx → EReal) (w2 : SD.Idx → EReal) (e : Fin 8) (t : Fin 1024)
    (d : Fin 2048) (n : ℕ) (hn : n + 512 ≤ 5632) :
    part x w1 w3 w2 e t d (n + 512)
      = part x w1 w3 w2 e t d n + ∑ r : Fin 512, term x w1 w3 w2 e t d ⟨n + r.val, by have := r.isLt; omega⟩ :=
  SumTiles.psum_add_tile _ n 512 hn

end Cert.Moe

end
-- ==== Proof.RefSide.lean ====
/-
  The reference computes the gated expert product.

  Its program regroups the 8192 tokens as [8, 1024, 2048], takes the two batched products with w1 and w3 over the feature
  axis, applies  h ↦ h · (1 / (1 + e^(−h)))  to the first and multiplies by the second, and takes the batched product with
  w2 over the hidden axis. Read index by index: each batched product at (e,t,h) is the sum over the contracted coordinate
  of the operands at (e,t,k) and (e,h,k); the quotient 1 / (1 + e^(−h)) is the logistic function of h by definition, the
  literal being the number one; so the value before the last regrouping is `Moe.out` of the regrouped tokens and the three
  weight arrays.
-/
import proofs.«130477_j644245095186_1_alg».proof.Proof.Gen.ReferenceIdeal.Read
import proofs.«130477_j644245095186_1_alg».proof.Proof.Spec

noncomputable section

open scoped BigOperators

namespace Cert.Moe.Ref

open Cert.ReferenceIdeal Cert.ReferenceIdeal.Read Idealize.ShloMosaic Idealize.ShloMosaic.ValueIdx

/-- The literal of the quotient's numerator and of the sum's first term is the number one. -/
theorem one_f32 : Ideal.ofBits .f32 0x3F800000#32 = 1 := by
  simp [Ideal.ofBits, Ideal.ieee, -EReal.coe_mul]; norm_num

/-- h · (1 / (1 + e^(−h))) is h · σ(h). -/
theorem silu_host (a : EReal) :
    FloatOps.mulf (F := Ideal) (φ := .f32) a
        (FloatOps.hostDivf (Ideal.ofBits .f32 0x3F800000#32)
          (FloatOps.addf (Ideal.ofBits .f32 0x3F800000#32) (FloatOps.hostUnary .exp (FloatOps.hostNegf a))))
      = a * Ideal.logistic a := by
  rw [one_f32]; rfl

/-- The first batched product at (e,t,h). -/
theorem v1_at (x0 : (⟨S8192x2048, .f32⟩ : BufTy).Contents (Elt Ideal)) (x2 : (⟨S8x5632x2048, .f32⟩ : BufTy).Contents (Elt Ideal))
    (e : Fin 8) (t : Fin 1024) (h : Fin 5632) :
    val_main_v1 (F := Ideal) x0 x2 (ix3 e t h) = proj (val_main_v0 (F := Ideal) x0) x2 e t h := by
  rw [val_main_v1_apply]
  exact Finset.sum_congr rfl fun k _ => by
    have el : lidx_main_v1 (ix3 e t h) k = ix3 e t k :=
      funext fun a => Fin.ext (by match a with | ⟨0, _⟩ => rfl | ⟨1, _⟩ => rfl | ⟨2, _⟩ => rfl)
    have er : ridx_main_v1 (ix3 e t h) k = ix3 e h k :=
      funext fun a => Fin.ext (by match a with | ⟨0, _⟩ => rfl | ⟨1, _⟩ => rfl | ⟨2, _⟩ => rfl)
    rw [el, er]

/-- The second batched product at (e,t,h). -/
theorem v2_at (x0 : (⟨S8192x2048, .f32⟩ : BufTy).Contents (Elt Ideal)) (x3 : (⟨S8x5632x2048, .f32⟩ : BufTy).Contents (Elt Ideal))
    (e : Fin 8) (t : Fin 1024) (h : Fin 5632) :
    val_main_v2 (F := Ideal) x0 x3 (ix3 e t h) = proj (val_main_v0 (F := Ideal) x0) x3 e t h := by
  rw [val_main_v2_apply]
  exact Finset.sum_congr rfl fun k _ => by
    have el : lidx_main_v2 (ix3 e t h) k = ix3 e t k :=
      funext fun a => Fin.ext (by match a with | ⟨0, _⟩ => rfl | ⟨1, _⟩ => rfl | ⟨2, _⟩ => rfl)
    have er : ridx_main_v2 (ix3 e t h) k = ix3 e h k :=
      funext fun a => Fin.ext (by match a with | ⟨0, _⟩ => rfl | ⟨1, _⟩ => rfl | ⟨2, _⟩ => rfl)
    rw [el, er]

/-- The gated activation at (e,t,h). -/
theorem v4_at (x0 : (⟨S8192x2048, .f32⟩ : BufTy).Contents (Elt Ideal)) (x2 x3 : (⟨S8x5632x2048, .f32⟩ : BufTy).Contents (Elt Ideal))
    (e : Fin 8) (t : Fin 1024) (h : Fin 5632) :
    val_main_v4 (F := Ideal) x0 x2 x3 (ix3 e t h) = act (val_main_v0 (F := Ideal) x0) x2 x3 e t h := by
  rw [val_main_v4_apply, val_main_v3_apply, val_main_call0_v5_apply, val_main_call0_v4_apply, val_main_call0_cst_0_apply,
    val_main_call0_v3_apply, val_main_call0_v2_apply, val_main_call0_cst_apply, val_main_call0_v1_apply,
    val_main_call0_v0_apply, v1_at, v2_at]
  unfold act gate
  exact congrArg (· * proj (val_main_v0 (F := Ideal) x0) x3 e t h) (silu_host _)

/-- The value before the last regrouping is the gated expert product of the regrouped tokens. -/
theorem v5_eq (x0 : (⟨S8192x2048, .f32⟩ : BufTy).Contents (Elt Ideal)) (x2 x3 : (⟨S8x5632x2048, .f32⟩ : BufTy).Contents (Elt Ideal))
    (x4 : (⟨S8x2048x5632, .f32⟩ : BufTy).Contents (Elt Ideal)) :
    val_main_v5 (F := Ideal) x0 x2 x3 x4 = out (val_main_v0 (F := Ideal) x0) x2 x3 x4 := by
  funext i
  obtain ⟨e, t, d, rfl⟩ : ∃ (e : Fin 8) (t : Fin 1024) (d : Fin 2048), i = ix3 e t d := ⟨i 0, i 1, i 2, eq_ix3 i⟩
  rw [val_main_v5_apply, out_ix3]
  unfold outAt term
  exact Finset.sum_congr rfl fun h _ => by
    have el : lidx_main_v5 (ix3 e t d) h = ix3 e t h :=
      funext fun a => Fin.ext (by match a with | ⟨0, _⟩ => rfl | ⟨1, _⟩ => rfl | ⟨2, _⟩ => rfl)
    have er : ridx_main_v5 (ix3 e t d) h = ix3 e d h :=
      funext fun a => Fin.ext (by match a with | ⟨0, _⟩ => rfl | ⟨1, _⟩ => rfl | ⟨2, _⟩ => rfl)
    rw [el, er, v4_at]

end Cert.Moe.Ref

end
-- ==== Proof.Pieces.lean ====
/-
  What one grid point leaves behind, as values.

  A grid point (e, ti, hi) works on a 512-token tile of expert e and the hi-th tile of 512 hidden units. Its body holds a
  [512, 2048] accumulator. With X, W1, W3, W2 the four blocks it is given and A the accumulator's contents so far, the body
  stores  A + u(X, W1, W3, W2)  back into the accumulator, where u is the tile's contribution (the payload of the one
  accumulating store). At hi = 0 the accumulator is first set to zero, so A is the zero block there; at the last hidden
  tile the new accumulator is also copied, regrouped as [1, 512, 2048], into the output block.

  The three control cases are: hi = 0 (zero, then accumulate), 0 < hi < 10 (accumulate), hi = 10 (accumulate, then copy
  out). For each, the contents the run found for the accumulator — and for the output block in the last case — are read
  back here as those values: every load and store is through the whole buffer, so a store leaves its payload and a load
  after it reads that payload.
-/
import proofs.«130477_j644245095186_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle hidden tile: the accumulator ends at its old contents plus the tile's contribution. -/
theorem scratch_B (c : Dev nD) (i : grid0.Coords) (arg3 : Memref sig .tc .vmem S1x512x2048 .bf16) (harg3 : arg3.IsWhole) (arg4 : Memref sig .tc .vmem S1x512x2048 .bf16) (harg4 : arg4.IsWhole) (arg5 : Memref sig .tc .vmem S1x512x2048 .bf16) (harg5 : arg5.IsWhole) (arg6 : Memref sig .tc .vmem S1x2048x512 .bf16) (harg6 : arg6.IsWhole) (arg7 : Memref sig .tc .vmem S1x512x2048 .f32) (harg7 : arg7.IsWhole) (arg8 : Memref sig .tc .vmem S512x2048 .f32) (harg8 : arg8.IsWhole) (hc0 : ¬cond0_0 i) (hc1 : ¬cond0_1 i)
    (x0 : Vec F S1x512x2048 .bf16) (x1 : Vec F S1x512x2048 .bf16) (x2 : Vec F S1x512x2048 .bf16) (x3 : Vec F S1x2048x512 .bf16) (xs0 : Vec F S512x2048 .f32) :
    sout0_B_0 c i arg3 harg3 arg4 harg4 arg5 harg5 arg6 harg6 arg7 harg7 arg8 harg8 hc0 hc1 x0 x1 x2 x3 xs0 = k0_pay2 x0 x1 x2 x3 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  rw [View.canon_unit_zero hz2]
  simp only [View.readAt_eq_ld, harg3.read_unread, harg4.read_unread, harg5.read_unread, harg6.read_unread, harg8.read_unread,
    View.ld_unit_zero (S := S1x512x2048) hz3, View.ld_unit_zero (S := S1x2048x512) hz3, View.ld_unit_zero (S := S512x2048) hz2]

/-- The first hidden tile: the accumulator is zeroed, read back, and ends at zero plus the tile's contribution. -/
theorem scratch_A (c : Dev nD) (i : grid0.Coords) (arg3 : Memref sig .tc .vmem S1x512x2048 .bf16) (harg3 : arg3.IsWhole) (arg4 : Memref sig .tc .vmem S1x512x2048 .bf16) (harg4 : arg4.IsWhole) (arg5 : Memref sig .tc .vmem S1x512x2048 .bf16) (harg5 : arg5.IsWhole) (arg6 : Memref sig .tc .vmem S1x2048x512 .bf16) (harg6 : arg6.IsWhole) (arg7 : Memref sig .tc .vmem S1x512x2048 .f32) (harg7 : arg7.IsWhole) (arg8 : Memref sig .tc .vmem S512x2048 .f32) (harg8 : arg8.IsWhole) (hc0 : cond0_0 i) (hc1 : ¬cond0_1 i)
    (x0 : Vec F S1x512x2048 .bf16) (x1 : Vec F S1x512x2048 .bf16) (x2 : Vec F S1x512x2048 .bf16) (x3 : Vec F S1x2048x512 .bf16) :
    sout0_A_0 c i arg3 harg3 arg4 harg4 arg5 harg5 arg6 harg6 arg7 harg7 arg8 harg8 hc0 hc1 x0 x1 x2 x3 = k0_pay2 x0 x1 x2 x3 k0_pay1 := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S512x2048) hz2, View.readCov_unit_zero (S := S512x2048) _ hz2]
  simp only [View.readAt_eq_ld, harg3.read_unread, harg4.read_unread, harg5.read_unread, harg6.read_unread,
    View.ld_unit_zero (S := S1x512x2048) hz3, View.ld_unit_zero (S := S1x2048x512) hz3]

/-- The last hidden tile: the accumulator ends as at a middle tile, -/
theorem scratch_C (c : Dev nD) (i : grid0.Coords) (arg3 : Memref sig .tc .vmem S1x512x2048 .bf16) (harg3 : arg3.IsWhole) (arg4 : Memref sig .tc .vmem S1x512x2048 .bf16) (harg4 : arg4.IsWhole) (arg5 : Memref sig .tc .vmem S1x512x2048 .bf16) (harg5 : arg5.IsWhole) (arg6 : Memref sig .tc .vmem S1x2048x512 .bf16) (harg6 : arg6.IsWhole) (arg7 : Memref sig .tc .vmem S1x512x2048 .f32) (harg7 : arg7.IsWhole) (arg8 : Memref sig .tc .vmem S512x2048 .f32) (harg8 : arg8.IsWhole) (hc0 : ¬cond0_0 i) (hc1 : cond0_1 i)
    (x0 : Vec F S1x512x2048 .bf16) (x1 : Vec F S1x512x2048 .bf16) (x2 : Vec F S1x512x2048 .bf16) (x3 : Vec F S1x2048x512 .bf16) (xs0 : Vec F S512x2048 .f32) :
    sout0_C_0 c i arg3 harg3 arg4 harg4 arg5 harg5 arg6 harg6 arg7 harg7 arg8 harg8 hc0 hc1 x0 x1 x2 x3 xs0 = k0_pay2 x0 x1 x2 x3 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz2]
  simp only [View.readAt_eq_ld, harg3.read_unread, harg4.read_unread, harg5.read_unread, harg6.read_unread, harg8.read_unread,
    View.ld_unit_zero (S := S1x512x2048) hz3, View.ld_unit_zero (S := S1x2048x512) hz3, View.ld_unit_zero (S := S512x2048) hz2]

/-- and the output block is that accumulator, regrouped. -/
theorem out_C (c : Dev nD) (i : grid0.Coords) (arg3 : Memref sig .tc .vmem S1x512x2048 .bf16) (harg3 : arg3.IsWhole) (arg4 : Memref sig .tc .vmem S1x512x2048 .bf16) (harg4 : arg4.IsWhole) (arg5 : Memref sig .tc .vmem S1x512x2048 .bf16) (harg5 : arg5.IsWhole) (arg6 : Memref sig .tc .vmem S1x2048x512 .bf16) (harg6 : arg6.IsWhole) (arg7 : Memref sig .tc .vmem S1x512x2048 .f32) (harg7 : arg7.IsWhole) (arg8 : Memref sig .tc .vmem S512x2048 .f32) (harg8 : arg8.IsWhole) (hc0 : ¬cond0_0 i) (hc1 : cond0_1 i)
    (x0 : Vec F S1x512x2048 .bf16) (x1 : Vec F S1x512x2048 .bf16) (x2 : Vec F S1x512x2048 .bf16) (x3 : Vec F S1x2048x512 .bf16) (xs0 : Vec F S512x2048 .f32) :
    out0_C_4 c i arg3 harg3 arg4 harg4 arg5 harg5 arg6 harg6 arg7 harg7 arg8 harg8 hc0 hc1 x0 x1 x2 x3 xs0 = k0_pay3 (k0_pay2 x0 x1 x2 x3 xs0) := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz3, View.readCov_unit_zero (S := S512x2048) _ hz2]
  simp only [View.readAt_eq_ld, harg3.read_unread, harg4.read_unread, harg5.read_unread, harg6.read_unread, harg8.read_unread,
    View.ld_unit_zero (S := S1x512x2048) hz3, View.ld_unit_zero (S := S1x2048x512) hz3, View.ld_unit_zero (S := S512x2048) hz2]

end Cert.KernelIdeal.Pieces

end
-- ==== Proof.LibContract.lean ====
/-
  A contraction over ONE axis, read as a sum over that axis's coordinate.

  At the ideal values a matrix product, whatever its dimension numbers, is at each output index j the sum over the
  contraction index set of  l (lhsIdx j q) * r (rhsIdx j q).  When exactly one axis of each operand is contracted,
  of extent K, the contraction index is one coordinate k : Fin K, and the sum is over k of the operands at the two
  indices that q = k gives. `single_sum` states this for any dimension numbers; the operand indices at each k are
  supplied by the caller (they are read off the dimension numbers coordinate by coordinate).
  `matmul_zero_single` and `dotGeneral_single` are the same for a product into the zero accumulator and for the
  host's product.
-/
import Idealize.ShloMosaic.Lib.ValueIdx
import Idealize.ShloMosaic.PureOps.Ideal.Laws

noncomputable section

open scoped BigOperators

namespace Cert.Lib.Contract

open Idealize.ShloMosaic Idealize.ShloMosaic.ValueIdx

variable {sl sr so : Shape}

/-- The contraction sum over one contracted axis of extent K, re-indexed through the axis's coordinate. -/
theorem single_sum (d : DotDims sl sr so) (K : ℕ) (hr : d.contr.rank = 1) (hs : d.contr.size ⟨0, by omega⟩ = K)
    (l : sl.Idx → EReal) (r : sr.Idx → EReal) (j : so.Idx) (Li : Fin K → sl.Idx) (Ri : Fin K → sr.Idx)
    (hl : ∀ (k : Fin K) (q : d.contr.Idx), (q ⟨0, by omega⟩).val = k.val → d.lhsIdx j q = Li k)
    (hrr : ∀ (k : Fin K) (q : d.contr.Idx), (q ⟨0, by omega⟩).val = k.val → d.rhsIdx j q = Ri k) :
    ∑ q : d.contr.Idx, l (d.lhsIdx j q) * r (d.rhsIdx j q) = ∑ k : Fin K, l (Li k) * r (Ri k) := by
  rw [← Equiv.sum_comp (contrEquiv1 d K hr hs).symm]
  refine Finset.sum_congr rfl fun k _ => ?_
  have hk := contrEquiv1_symm_val d K hr hs k
  rw [hl k _ hk, hrr k _ hk]

/-- A kernel's matrix product into the zero accumulator, one axis contracted, read at an output index. -/
theorem matmul_zero_single {φ₁ φ₂ : FTy} (d : DotDims sl sr so) (prec : Option ContractPrecision) (K : ℕ)
    (hr : d.contr.rank = 1) (hs : d.contr.size ⟨0, by omega⟩ = K)
    (l : FVec Ideal sl φ₁) (r : FVec Ideal sr φ₂) (j : so.Idx) (Li : Fin K → sl.Idx) (Ri : Fin K → sr.Idx)
    (hl : ∀ (k : Fin K) (q : d.contr.Idx), (q ⟨0, by omega⟩).val = k.val → d.lhsIdx j q = Li k)
    (hrr : ∀ (k : Fin K) (q : d.contr.Idx), (q ⟨0, by omega⟩).val = k.val → d.rhsIdx j q = Ri k) :
    matmul d prec l r (constant so .f32 0x00000000#32) j = ∑ k : Fin K, l (Li k) * r (Ri k) :=
  (Ideal.matmul_constant_zero_apply d prec l r j).trans (single_sum d K hr hs l r j Li Ri hl hrr)

/-- The host's matrix product, one axis contracted, read at an output index. -/
theorem dotGeneral_single {φ₁ φ₂ : FTy} (d : DotDims sl sr so) (prec : Option ContractPrecision) (K : ℕ)
    (hr : d.contr.rank = 1) (hs : d.contr.size ⟨0, by omega⟩ = K)
    (l : FVec Ideal sl φ₁) (r : FVec Ideal sr φ₂) (j : so.Idx) (Li : Fin K → sl.Idx) (Ri : Fin K → sr.Idx)
    (hl : ∀ (k : Fin K) (q : d.contr.Idx), (q ⟨0, by omega⟩).val = k.val → d.lhsIdx j q = Li k)
    (hrr : ∀ (k : Fin K) (q : d.contr.Idx), (q ⟨0, by omega⟩).val = k.val → d.rhsIdx j q = Ri k) :
    Host.dotGeneral d prec l r j = ∑ k : Fin K, l (Li k) * r (Ri k) :=
  (Ideal.dotGeneral_apply d prec .single l r j).trans (single_sum d K hr hs l r j Li Ri hl hrr)

end Cert.Lib.Contract

end
-- ==== Proof.Payload.lean ====
/-
  One grid point's arithmetic, index by index.

  With the blocks X [1,512,2048] (512 tokens), W1, W3 [1,512,2048] (512 hidden units' up-projection rows), W2 [1,2048,512]
  (the same hidden units' down-projection columns) and the accumulator A [512,2048], the body computes, at token p of the
  tile and feature q,
      A(p,q) + Σ_{j<512} ((P(p,j) · σ(P(p,j))) · Q(p,j)) · W2(0,q,j),
      P(p,j) = Σ_{k<2048} X(0,p,k) · W1(0,j,k),      Q(p,j) = Σ_{k<2048} X(0,p,k) · W3(0,j,k).
  Each of the three products contracts the second axis of both operands and starts from a zero accumulator, so at an
  index it is the plain sum over the contracted coordinate; dropping or adding the leading axis of extent one does not
  move an entry; narrowing the gated activations to a shorter float format is the identity on exact values; the zero block
  holds the number zero.
-/
import proofs.«130477_j644245095186_1_alg».proof.Proof.Gen.KernelIdeal.Skeleton
import proofs.«130477_j644245095186_1_alg».proof.Proof.Spec
import proofs.«130477_j644245095186_1_alg».proof.Proof.LibContract
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ### Where the two up-projection products read their operands -/

theorem up_lhs0 (j : S512x512.Idx) (q : dot_S512x2048_S512x2048_S512x512_1_1_0_0_n_n.contr.Idx) : (dot_S512x2048_S512x2048_S512x512_1_1_0_0_n_n.lhsIdx j q 0).val = (j 0).val := by
  unfold DotDims.lhsIdx
  rw [dif_neg (show ¬(0 : Fin S512x2048.rank) ∈ dot_S512x2048_S512x2048_S512x512_1_1_0_0_n_n.lhsBatch by decide),
    dif_pos (show (0 : Fin S512x2048.rank) ∈ dot_S512x2048_S512x2048_S512x512_1_1_0_0_n_n.lhsNonContracting by decide)]
  rfl
theorem up_lhs1 (j : S512x512.Idx) (q : dot_S512x2048_S512x2048_S512x512_1_1_0_0_n_n.contr.Idx) : (dot_S512x2048_S512x2048_S512x512_1_1_0_0_n_n.lhsIdx j q 1).val = (q ⟨0, by decide⟩).val :=
  dot_S512x2048_S512x2048_S512x512_1_1_0_0_n_n.lhsIdx_val_of_single rfl j q
theorem up_rhs0 (j : S512x512.Idx) (q : dot_S512x2048_S512x2048_S512x512_1_1_0_0_n_n.contr.Idx) : (dot_S512x2048_S512x2048_S512x512_1_1_0_0_n_n.rhsIdx j q 0).val = (j 1).val := by
  unfold DotDims.rhsIdx
  rw [dif_neg (show ¬(0 : Fin S512x2048.rank) ∈ dot_S512x2048_S512x2048_S512x512_1_1_0_0_n_n.rhsBatch by decide),
    dif_pos (show (0 : Fin S512x2048.rank) ∈ dot_S512x2048_S512x2048_S512x512_1_1_0_0_n_n.rhsNonContracting by decide)]
  rfl
theorem up_rhs1 (j : S512x512.Idx) (q : dot_S512x2048_S512x2048_S512x512_1_1_0_0_n_n.contr.Idx) : (dot_S512x2048_S512x2048_S512x512_1_1_0_0_n_n.rhsIdx j q 1).val = (q ⟨0, by decide⟩).val :=
  dot_S512x2048_S512x2048_S512x512_1_1_0_0_n_n.rhsIdx_val_of_single rfl j q

/-- A product of two [·, 2048] blocks over their second axes, at (p, j): Σ_k l(p,k) · r(j,k). -/
theorem up_at (l r : FVec Ideal S512x2048 .bf16) (p j : Fin 512) :
    matmul dot_S512x2048_S512x2048_S512x512_1_1_0_0_n_n none l r (constant S512x512 .f32 0x00000000#32) (ix2 p j)
      = ∑ k : Fin 2048, l (ix2 p k) * r (ix2 j k) :=
  Cert.Lib.Contract.matmul_zero_single dot_S512x2048_S512x2048_S512x512_1_1_0_0_n_n none 2048 rfl rfl l r (ix2 p j)
    (fun k => ix2 p k) (fun k => ix2 j k)
    (fun k q hq => funext fun a => Fin.ext (by
      match a with
      | ⟨0, _⟩ => exact up_lhs0 _ _
      | ⟨1, _⟩ => exact (up_lhs1 _ _).trans hq))
    (fun k q hq => funext fun a => Fin.ext (by
      match a with
      | ⟨0, _⟩ => exact up_rhs0 _ _
      | ⟨1, _⟩ => exact (up_rhs1 _ _).trans hq))

/-! ### Where the down-projection product reads its operands -/

theorem down_lhs0 (j : S512x2048.Idx) (q : dot_S512x512_S2048x512_S512x2048_1_1_0_0_n_n.contr.Idx) : (dot_S512x512_S2048x512_S512x2048_1_1_0_0_n_n.lhsIdx j q 0).val = (j 0).val := by
  unfold DotDims.lhsIdx
  rw [dif_neg (show ¬(0 : Fin S512x512.rank) ∈ dot_S512x512_S2048x512_S512x2048_1_1_0_0_n_n.lhsBatch by decide),
    dif_pos (show (0 : Fin S512x512.rank) ∈ dot_S512x512_S2048x512_S512x2048_1_1_0_0_n_n.lhsNonContracting by decide)]
  rfl
theorem down_lhs1 (j : S512x2048.Idx) (q : dot_S512x512_S2048x512_S512x2048_1_1_0_0_n_n.contr.Idx) : (dot_S512x512_S2048x512_S512x2048_1_1_0_0_n_n.lhsIdx j q 1).val = (q ⟨0, by decide⟩).val :=
  dot_S512x512_S2048x512_S512x2048_1_1_0_0_n_n.lhsIdx_val_of_single rfl j q
theorem down_rhs0 (j : S512x2048.Idx) (q : dot_S512x512_S2048x512_S512x2048_1_1_0_0_n_n.contr.Idx) : (dot_S512x512_S2048x512_S512x2048_1_1_0_0_n_n.rhsIdx j q 0).val = (j 1).val := by
  unfold DotDims.rhsIdx
  rw [dif_neg (show ¬(0 : Fin S2048x512.rank) ∈ dot_S512x512_S2048x512_S512x2048_1_1_0_0_n_n.rhsBatch by decide),
    dif_pos (show (0 : Fin S2048x512.rank) ∈ dot_S512x512_S2048x512_S512x2048_1_1_0_0_n_n.rhsNonContracting by decide)]
  rfl
theorem down_rhs1 (j : S512x2048.Idx) (q : dot_S512x512_S2048x512_S512x2048_1_1_0_0_n_n.contr.Idx) : (dot_S512x512_S2048x512_S512x2048_1_1_0_0_n_n.rhsIdx j q 1).val = (q ⟨0, by decide⟩).val :=
  dot_S512x512_S2048x512_S512x2048_1_1_0_0_n_n.rhsIdx_val_of_single rfl j q

/-- The product of a [512, 512] block and a [2048, 512] block over their second axes, at (p, q): Σ_j l(p,j) · r(q,j). -/
theorem down_at (l : FVec Ideal S512x512 .bf16) (r : FVec Ideal S2048x512 .bf16) (p : Fin 512) (q : Fin 2048) :
    matmul dot_S512x512_S2048x512_S512x2048_1_1_0_0_n_n none l r (constant S512x2048 .f32 0x00000000#32) (ix2 p q)
      = ∑ j : Fin 512, l (ix2 p j) * r (ix2 q j) :=
  Cert.Lib.Contract.matmul_zero_single dot_S512x512_S2048x512_S512x2048_1_1_0_0_n_n none 512 rfl rfl l r (ix2 p q)
    (fun j => ix2 p j) (fun j => ix2 q j)
    (fun k s hs => funext fun a => Fin.ext (by
      match a with
      | ⟨0, _⟩ => exact down_lhs0 _ _
      | ⟨1, _⟩ => exact (down_lhs1 _ _).trans hs))
    (fun k s hs => funext fun a => Fin.ext (by
      match a with
      | ⟨0, _⟩ => exact down_rhs0 _ _
      | ⟨1, _⟩ => exact (down_rhs1 _ _).trans hs))

/-! ### The three stored values -/

/-- The zero block holds zero. -/
theorem pay1_at (p : Fin 512) (q : Fin 2048) : k0_pay1 (F := Ideal) (ix2 p q) = 0 := by
  unfold k0_pay1
  rw [shapeCast_self]
  exact Ideal.ofBits_zero_f32

/-- The copy into the output block, at (0, p, q): the accumulator at (p, q). -/
theorem pay3_at (v : Vec Ideal S512x2048 .f32) (u : Fin 1) (p : Fin 512) (q : Fin 2048) :
    k0_pay3 (F := Ideal) v (ix3 u p q) = v (ix2 p q) := by
  unfold k0_pay3
  exact shapeCast_ab_1ab_apply v shapeCasts_S512x2048_S1x512x2048 u p q

/-- The gated activations, narrowed to the shorter format, at an index: the gate of the two projections there. -/
theorem gate_at (a b : FVec Ideal S512x512 .f32) (h : FTy.bits .bf16 < FTy.bits .f32) (i : S512x512.Idx) :
    (truncf .bf16 (mulf (mulf a (logistic a)) b) h : FVec Ideal S512x512 .bf16) i = Cert.Moe.gate (a i) (b i) := rfl

/-- The accumulating store's value at (p, q). -/
theorem pay2_at (x0 x1 x2 : Vec Ideal S1x512x2048 .bf16) (x3 : Vec Ideal S1x2048x512 .bf16) (xs : Vec Ideal S512x2048 .f32)
    (p : Fin 512) (q : Fin 2048) :
    k0_pay2 (F := Ideal) x0 x1 x2 x3 xs (ix2 p q)
      = xs (ix2 p q) + ∑ j : Fin 512,
          Cert.Moe.gate (∑ k : Fin 2048, x0 (ix3 (0 : Fin 1) p k) * x1 (ix3 (0 : Fin 1) j k))
              (∑ k : Fin 2048, x0 (ix3 (0 : Fin 1) p k) * x2 (ix3 (0 : Fin 1) j k))
            * x3 (ix3 (0 : Fin 1) q j) := by
  unfold k0_pay2
  rw [shapeCast_self]
  refine congrArg (xs (ix2 p q) + ·) ((down_at _ _ p q).trans (Finset.sum_congr rfl fun j _ => ?_))
  refine congrArg₂ (· * ·) ?_ (shapeCast_1ab_ab_apply x3 shapeCasts_S1x2048x512_S2048x512 q j)
  refine (gate_at _ _ _ (ix2 p j)).trans (congrArg₂ Cert.Moe.gate ((up_at _ _ p j).trans ?_) ((up_at _ _ p j).trans ?_))
  · exact Finset.sum_congr rfl fun k _ => congrArg₂ (· * ·)
      (shapeCast_1ab_ab_apply x0 shapeCasts_S1x512x2048_S512x2048 p k) (shapeCast_1ab_ab_apply x1 shapeCasts_S1x512x2048_S512x2048 j k)
  · exact Finset.sum_congr rfl fun k _ => congrArg₂ (· * ·)
      (shapeCast_1ab_ab_apply x0 shapeCasts_S1x512x2048_S512x2048 p k) (shapeCast_1ab_ab_apply x2 shapeCasts_S1x512x2048_S512x2048 j k)

/-- The accumulating store's value at (p, q) when the four blocks are blocks of four arrays: the token block rows
    tok(·) of expert e's tokens, the weight blocks hidden units hid(·) of expert e's weights. It is the old accumulator
    plus those hidden units' contributions to feature q of token tok(p). -/
theorem step_of (x0 x1 x2 : Vec Ideal S1x512x2048 .bf16) (x3 : Vec Ideal S1x2048x512 .bf16) (acc : Vec Ideal S512x2048 .f32)
    (XX : Cert.Moe.SX.Idx → EReal) (WW1 WW3 : Cert.Moe.SW.Idx → EReal) (WW2 : Cert.Moe.SD.Idx → EReal)
    (e : Fin 8) (tok : Fin 512 → Fin 1024) (hid : Fin 512 → Fin 5632)
    (hx : ∀ (p : Fin 512) (k : Fin 2048), x0 (ix3 (0 : Fin 1) p k) = XX (ix3 e (tok p) k))
    (hw1 : ∀ (j : Fin 512) (k : Fin 2048), x1 (ix3 (0 : Fin 1) j k) = WW1 (ix3 e (hid j) k))
    (hw3 : ∀ (j : Fin 512) (k : Fin 2048), x2 (ix3 (0 : Fin 1) j k) = WW3 (ix3 e (hid j) k))
    (hw2 : ∀ (q : Fin 2048) (j : Fin 512), x3 (ix3 (0 : Fin 1) q j) = WW2 (ix3 e q (hid j)))
    (p : Fin 512) (q : Fin 2048) :
    k0_pay2 (F := Ideal) x0 x1 x2 x3 acc (ix2 p q)
      = acc (ix2 p q) + ∑ j : Fin 512, Cert.Moe.term XX WW1 WW3 WW2 e (tok p) q (hid j) := by
  refine (pay2_at x0 x1 x2 x3 acc p q).trans (congrArg (acc (ix2 p q) + ·) (Finset.sum_congr rfl fun j _ => ?_))
  unfold Cert.Moe.term Cert.Moe.act Cert.Moe.proj
  simp only [hx, hw1, hw3, hw2]

end Cert.KernelIdeal.Payload

end
-- ==== Proof.Blocks.lean ====
/-
  Which entries of the arrays a grid point's blocks hold.

  The grid is 8 × 2 × 11: point number n (row-major) is expert e = n / 22, token tile ti = (n / 11) mod 2 and hidden
  tile hi = n mod 11. Its token block is rows 512·ti … 512·ti + 511 of expert e's tokens, its two up-projection blocks are
  rows 512·hi … 512·hi + 511 of expert e's w1 and w3, and its down-projection block is columns 512·hi … 512·hi + 511 of
  expert e's w2. So entry (0, p, k) of the token block is X(e, 512·ti + p, k), entry (0, j, k) of an up-projection block
  is W(e, 512·hi + j, k), and entry (0, q, j) of the down-projection block is W2(e, q, 512·hi + j): an entry of a block
  sits at  block index × block extent + its coordinate inside the block  along every axis.
-/
import proofs.«130477_j644245095186_1_alg».proof.Proof.Gen.KernelIdeal.Frame
import proofs.«130477_j644245095186_1_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

variable (m : (ℓ : Loc nD τ sig) → Buf (Elt Ideal) ℓ)

/-- The tokens, grouped by expert, as the region finds them. -/
def X (c : Dev nD) : Cert.Moe.SX.Idx → EReal := V m c main_v1
/-- The first up-projection's weights, as the region finds them. -/
def W1 (c : Dev nD) : Cert.Moe.SW.Idx → EReal := V m c main_v2
/-- The second up-projection's weights, as the region finds them. -/
def W3 (c : Dev nD) : Cert.Moe.SW.Idx → EReal := V m c main_v3
/-- The down-projection's weights, as the region finds them. -/
def W2 (c : Dev nD) : Cert.Moe.SD.Idx → EReal := V m c main_v4

/-- The grid has 176 points. -/
theorem lt176 (t : Fin cfg0.N) : t.val < 176 := lt_of_lt_of_eq t.isLt N_0

/-- Point n's expert. -/
def eOf (n : ℕ) (h : n < 176) : Fin 8 := ⟨n / 22, by omega⟩
/-- Token p of point n's tile, among its expert's 1024 tokens. -/
def tokOf (n : ℕ) (h : n < 176) (p : Fin 512) : Fin 1024 := ⟨n / 11 % 2 * 512 + p.val, by have := p.isLt; omega⟩
/-- Hidden unit j of point n's tile, among the 5632 hidden units. -/
def hidOf (n : ℕ) (j : Fin 512) : Fin 5632 :=
  ⟨n % 11 * 512 + j.val, by have := j.isLt; have := Nat.mod_lt n (show 0 < 11 by norm_num); omega⟩

/-! ### The block indices, decided over the grid -/

theorem idx0 : ∀ t : Fin cfg0.N, win0_0.index t 0 = t.val / 22 ∧ win0_0.index t 1 = t.val / 11 % 2 ∧ win0_0.index t 2 = 0 :=
  (by decide +kernel : ∀ t : Fin grid0.N, win0_0.index t 0 = t.val / 22 ∧ win0_0.index t 1 = t.val / 11 % 2 ∧ win0_0.index t 2 = 0)
theorem idx1 : ∀ t : Fin cfg0.N, win0_1.index t 0 = t.val / 22 ∧ win0_1.index t 1 = t.val % 11 ∧ win0_1.index t 2 = 0 :=
  (by decide +kernel : ∀ t : Fin grid0.N, win0_1.index t 0 = t.val / 22 ∧ win0_1.index t 1 = t.val % 11 ∧ win0_1.index t 2 = 0)
theorem idx2 : ∀ t : Fin cfg0.N, win0_2.index t 0 = t.val / 22 ∧ win0_2.index t 1 = t.val % 11 ∧ win0_2.index t 2 = 0 :=
  (by decide +kernel : ∀ t : Fin grid0.N, win0_2.index t 0 = t.val / 22 ∧ win0_2.index t 1 = t.val % 11 ∧ win0_2.index t 2 = 0)
theorem idx3 : ∀ t : Fin cfg0.N, win0_3.index t 0 = t.val / 22 ∧ win0_3.index t 1 = 0 ∧ win0_3.index t 2 = t.val % 11 :=
  (by decide +kernel : ∀ t : Fin grid0.N, win0_3.index t 0 = t.val / 22 ∧ win0_3.index t 1 = 0 ∧ win0_3.index t 2 = t.val % 11)
theorem idx4 : ∀ t : Fin cfg0.N, win0_4.index t 0 = t.val / 22 ∧ win0_4.index t 1 = t.val / 11 % 2 ∧ win0_4.index t 2 = 0 :=
  (by decide +kernel : ∀ t : Fin grid0.N, win0_4.index t 0 = t.val / 22 ∧ win0_4.index t 1 = t.val / 11 % 2 ∧ win0_4.index t 2 = 0)

/-! ### The blocks, entry by entry -/

/-- The token block. -/
theorem xblk_at (c : Dev nD) (t : Fin cfg0.N) (p : Fin 512) (k : Fin 2048) :
    (iblk m c 0 t : Vec Ideal S1x512x2048 .bf16) (ix3 (0 : Fin 1) p k)
      = X m c (ix3 (eOf t.val (lt176 t)) (tokOf t.val (lt176 t) p) k) := by
  unfold iblk X
  rw [View.read_apply]
  show V m c main_v1 (((cfg0.win 0).blk t).view.emb (ix3 (0 : Fin 1) p k)) = V m c main_v1 _
  refine congrArg (V m c main_v1) (funext fun a => Fin.ext ?_)
  match a with
  | ⟨0, _⟩ => show win0_0.index t 0 * 1 + 1 * 0 = t.val / 22; rw [(idx0 t).1]; omega
  | ⟨1, _⟩ => show win0_0.index t 1 * 512 + 1 * p.val = t.val / 11 % 2 * 512 + p.val; rw [(idx0 t).2.1]; omega
  | ⟨2, _⟩ => show win0_0.index t 2 * 2048 + 1 * k.val = k.val; rw [(idx0 t).2.2]; omega

/-- The first up-projection block. -/
theorem w1blk_at (c : Dev nD) (t : Fin cfg0.N) (j : Fin 512) (k : Fin 2048) :
    (iblk m c 1 t : Vec Ideal S1x512x2048 .bf16) (ix3 (0 : Fin 1) j k)
      = W1 m c (ix3 (eOf t.val (lt176 t)) (hidOf t.val j) k) := by
  unfold iblk W1
  rw [View.read_apply]
  show V m c main_v2 (((cfg0.win 1).blk t).view.emb (ix3 (0 : Fin 1) j k)) = V m c main_v2 _
  refine congrArg (V m c main_v2) (funext fun a => Fin.ext ?_)
  match a with
  | ⟨0, _⟩ => show win0_1.index t 0 * 1 + 1 * 0 = t.val / 22; rw [(idx1 t).1]; omega
  | ⟨1, _⟩ => show win0_1.index t 1 * 512 + 1 * j.val = t.val % 11 * 512 + j.val; rw [(idx1 t).2.1]; omega
  | ⟨2, _⟩ => show win0_1.index t 2 * 2048 + 1 * k.val = k.val; rw [(idx1 t).2.2]; omega

/-- The second up-projection block. -/
theorem w3blk_at (c : Dev nD) (t : Fin cfg0.N) (j : Fin 512) (k : Fin 2048) :
    (iblk m c 2 t : Vec Ideal S1x512x2048 .bf16) (ix3 (0 : Fin 1) j k)
      = W3 m c (ix3 (eOf t.val (lt176 t)) (hidOf t.val j) k) := by
  unfold iblk W3
  rw [View.read_apply]
  show V m c main_v3 (((cfg0.win 2).blk t).view.emb (ix3 (0 : Fin 1) j k)) = V m c main_v3 _
  refine congrArg (V m c main_v3) (funext fun a => Fin.ext ?_)
  match a with
  | ⟨0, _⟩ => show win0_2.index t 0 * 1 + 1 * 0 = t.val / 22; rw [(idx2 t).1]; omega
  | ⟨1, _⟩ => show win0_2.index t 1 * 512 + 1 * j.val = t.val % 11 * 512 + j.val; rw [(idx2 t).2.1]; omega
  | ⟨2, _⟩ => show win0_2.index t 2 * 2048 + 1 * k.val = k.val; rw [(idx2 t).2.2]; omega

/-- The down-projection block. -/
theorem w2blk_at (c : Dev nD) (t : Fin cfg0.N) (q : Fin 2048) (j : Fin 512) :
    (iblk m c 3 t : Vec Ideal S1x2048x512 .bf16) (ix3 (0 : Fin 1) q j)
      = W2 m c (ix3 (eOf t.val (lt176 t)) q (hidOf t.val j)) := by
  unfold iblk W2
  rw [View.read_apply]
  show V m c main_v4 (((cfg0.win 3).blk t).view.emb (ix3 (0 : Fin 1) q j)) = V m c main_v4 _
  refine congrArg (V m c main_v4) (funext fun a => Fin.ext ?_)
  match a with
  | ⟨0, _⟩ => show win0_3.index t 0 * 1 + 1 * 0 = t.val / 22; rw [(idx3 t).1]; omega
  | ⟨1, _⟩ => show win0_3.index t 1 * 2048 + 1 * q.val = q.val; rw [(idx3 t).2.1]; omega
  | ⟨2, _⟩ => show win0_3.index t 2 * 512 + 1 * j.val = t.val % 11 * 512 + j.val; rw [(idx3 t).2.2]; omega

end Cert.KernelIdeal.Blocks

end
-- ==== Proof.Accum.lean ====
/-
  The accumulator after each grid point is a partial sum of the result.

  Point n = 22·e + 11·ti + hi adds to the accumulator, at token p of its tile and feature q, the contributions of the
  512 hidden units of tile hi to feature q of token 512·ti + p of expert e; at hi = 0 it starts from zero, otherwise from
  what point n − 1 left, which belongs to the same expert and token tile. So after point n the accumulator holds, at
  (p, q), the sum of the first 512·(hi + 1) hidden units' contributions (induction on n, one tile at a time), and after
  the last hidden tile, hi = 10, it holds all 5632 of them: the result at (e, 512·ti + p, q). The output block written at
  that point is this accumulator.
-/
import proofs.«130477_j644245095186_1_alg».proof.Proof.Pieces
import proofs.«130477_j644245095186_1_alg».proof.Proof.Payload
import proofs.«130477_j644245095186_1_alg».proof.Proof.Blocks

noncomputable section

open scoped BigOperators
open Idealize.ShloMosaic Idealize.ShloMosaic.TcCoe Idealize.SL.Sem Idealize.ShloMosaic.ValueIdx

namespace Cert.KernelIdeal.Accum

open Cert.KernelIdeal Cert.KernelIdeal.Gen Cert.KernelIdeal.Blocks

variable (m : (ℓ : Loc nD τ sig) → Buf (Elt Ideal) ℓ)

/-- One point: the new accumulator is the old one plus the contributions of the point's 512 hidden units. -/
theorem step_at (c : Dev nD) (t : Fin cfg0.N) (acc : Vec Ideal S512x2048 .f32) (p : Fin 512) (q : Fin 2048) :
    k0_pay2 (F := Ideal) (iblk m c 0 t) (iblk m c 1 t) (iblk m c 2 t) (iblk m c 3 t) acc (ix2 p q)
      = acc (ix2 p q) + ∑ j : Fin 512,
          Cert.Moe.term (X m c) (W1 m c) (W3 m c) (W2 m c) (eOf t.val (lt176 t)) (tokOf t.val (lt176 t) p) q (hidOf t.val j) :=
  Payload.step_of (iblk m c 0 t) (iblk m c 1 t) (iblk m c 2 t) (iblk m c 3 t) acc (X m c) (W1 m c) (W3 m c) (W2 m c) (eOf t.val (lt176 t)) (tokOf t.val (lt176 t)) (hidOf t.val) (xblk_at m c t) (w1blk_at m c t) (w3blk_at m c t) (w2blk_at m c t) p q

/-- The first hidden tile: from zero. -/
theorem first_at (c : Dev nD) (t : Fin cfg0.N) (h0 : t.val % 11 = 0) (h1 : ¬t.val % 11 = 10) (p : Fin 512) (q : Fin 2048) :
    (outsAt0 m c t.val t.isLt).2 (ix2 p q)
      = 0 + ∑ j : Fin 512,
          Cert.Moe.term (X m c) (W1 m c) (W3 m c) (W2 m c) (eOf t.val (lt176 t)) (tokOf t.val (lt176 t) p) q (hidOf t.val j) := by
  rw [outsAt0_A m c t h0 h1]
  dsimp only
  rw [Pieces.scratch_A]
  refine (step_at m c t _ p q).trans ?_
  rw [Payload.pay1_at]

/-- A middle hidden tile: from what the point before left. -/
theorem middle_at (c : Dev nD) (t : Fin cfg0.N) (h0 : ¬t.val % 11 = 0) (h1 : ¬t.val % 11 = 10) (p : Fin 512) (q : Fin 2048) :
    (outsAt0 m c t.val t.isLt).2 (ix2 p q)
      = (outsAt0 m c (t.val - 1) (Nat.lt_of_le_of_lt (Nat.sub_le _ _) t.isLt)).2 (ix2 p q) + ∑ j : Fin 512,
          Cert.Moe.term (X m c) (W1 m c) (W3 m c) (W2 m c) (eOf t.val (lt176 t)) (tokOf t.val (lt176 t) p) q (hidOf t.val j) := by
  rw [outsAt0_B m c t h0 h1]
  dsimp only
  rw [Pieces.scratch_B]
  exact step_at m c t _ p q

/-- The last hidden tile: likewise, -/
theorem last_at (c : Dev nD) (t : Fin cfg0.N) (h0 : ¬t.val % 11 = 0) (h1 : t.val % 11 = 10) (p : Fin 512) (q : Fin 2048) :
    (outsAt0 m c t.val t.isLt).2 (ix2 p q)
      = (outsAt0 m c (t.val - 1) (Nat.lt_of_le_of_lt (Nat.sub_le _ _) t.isLt)).2 (ix2 p q) + ∑ j : Fin 512,
          Cert.Moe.term (X m c) (W1 m c) (W3 m c) (W2 m c) (eOf t.val (lt176 t)) (tokOf t.val (lt176 t) p) q (hidOf t.val j) := by
  rw [outsAt0_C m c t h0 h1]
  dsimp only
  rw [Pieces.scratch_C]
  exact step_at m c t _ p q

/-- and the output block written there is the accumulator. -/
theorem out_is_acc (c : Dev nD) (t : Fin cfg0.N) (h0 : ¬t.val % 11 = 0) (h1 : t.val % 11 = 10) (u : Fin 1) (p : Fin 512)
    (q : Fin 2048) :
    (outsAt0 m c t.val t.isLt).1 (ix3 u p q) = (outsAt0 m c t.val t.isLt).2 (ix2 p q) := by
  rw [outsAt0_C m c t h0 h1]
  dsimp only
  rw [Pieces.out_C, Pieces.scratch_C, Payload.pay3_at]

/-- After point n the accumulator holds the first 512·(hi + 1) hidden units' contributions. -/
theorem acc_eq (c : Dev nD) : ∀ (n : ℕ) (hn : n < cfg0.N) (p : Fin 512) (q : Fin 2048),
    (outsAt0 m c n hn).2 (ix2 p q)
      = Cert.Moe.part (X m c) (W1 m c) (W3 m c) (W2 m c) (eOf n (lt176 ⟨n, hn⟩)) (tokOf n (lt176 ⟨n, hn⟩) p) q ((n % 11 + 1) * 512) := by
  intro n
  induction n using Nat.strong_induction_on with
  | _ n ih =>
    intro hn p q
    have hN : n < 176 := lt176 ⟨n, hn⟩
    by_cases h0 : n % 11 = 0
    · have h1 : ¬n % 11 = 10 := by omega
      refine (first_at m c ⟨n, hn⟩ h0 h1 p q).trans ?_
      rw [show (n % 11 + 1) * 512 = 512 by omega, Cert.Moe.part_first]
      refine congrArg (0 + ·) (Finset.sum_congr rfl fun j _ => congrArg _ (Fin.ext ?_))
      show n % 11 * 512 + j.val = j.val
      omega
    · have hpos : 0 < n := by omega
      have hstep : (outsAt0 m c n hn).2 (ix2 p q)
          = (outsAt0 m c (n - 1) (Nat.lt_of_le_of_lt (Nat.sub_le _ _) hn)).2 (ix2 p q) + ∑ j : Fin 512,
              Cert.Moe.term (X m c) (W1 m c) (W3 m c) (W2 m c) (eOf n hN) (tokOf n hN p) q (hidOf n j) := by
        by_cases h1 : n % 11 = 10
        · exact last_at m c ⟨n, hn⟩ h0 h1 p q
        · exact middle_at m c ⟨n, hn⟩ h0 h1 p q
      rw [hstep, ih (n - 1) (by omega) _ p q]
      have he : eOf (n - 1) (lt176 ⟨n - 1, Nat.lt_of_le_of_lt (Nat.sub_le _ _) hn⟩) = eOf n hN :=
        Fin.ext (by show (n - 1) / 22 = n / 22; omega)
      have ht : tokOf (n - 1) (lt176 ⟨n - 1, Nat.lt_of_le_of_lt (Nat.sub_le _ _) hn⟩) p = tokOf n hN p :=
        Fin.ext (by show (n - 1) / 11 % 2 * 512 + p.val = n / 11 % 2 * 512 + p.val; omega)
      rw [he, ht, show ((n - 1) % 11 + 1) * 512 = n % 11 * 512 by omega,
        show (n % 11 + 1) * 512 = n % 11 * 512 + 512 by omega,
        Cert.Moe.part_next _ _ _ _ _ _ _ (n % 11 * 512) (by omega)]
      rfl

/-- The block written back at the last hidden tile is the result's block. -/
theorem out_eq (c : Dev nD) (t : Fin cfg0.N) (h1 : t.val % 11 = 10) (u : Fin 1) (p : Fin 512) (q : Fin 2048) :
    (outsAt0 m c t.val t.isLt).1 (ix3 u p q)
      = Cert.Moe.outAt (X m c) (W1 m c) (W3 m c) (W2 m c) (eOf t.val (lt176 t)) (tokOf t.val (lt176 t) p) q := by
  rw [out_is_acc m c t (by omega) h1 u p q, acc_eq m c t.val t.isLt p q,
    show (t.val % 11 + 1) * 512 = 5632 by omega]
  exact Cert.Moe.part_full _ _ _ _ _ _ _

end Cert.KernelIdeal.Accum

end
-- ==== Proof.Final.lean ====
/-
  What the kernel's program leaves in its result.

  The output block is written back only after the last hidden tile of each (expert, token tile) pair; the block written
  there is rows 512·ti … 512·ti + 511 of expert e of the gated expert product of the four arrays the region was given.
  Those sixteen blocks tile the [8, 1024, 2048] array: row r of expert e lies in the block of token tile r / 512. So
  after the region the array holds the gated expert product, and the program's last line regroups it as [8192, 2048].
  The arrays the region was given are the program's arguments: the tokens regrouped as [8, 1024, 2048], and the three
  weight arrays themselves — narrowing them to a shorter float format first changes no exact value.
-/
import proofs.«130477_j644245095186_1_alg».proof.Proof.Accum
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Blocks

variable (m : (ℓ : Loc nD τ sig) → Buf (Elt Ideal) ℓ) (ρ : Dev nD → PrngReg)

/-- What a write-back writes: the point's block of the gated expert product. -/
theorem flushed_eq (c : Dev nD) (t : Fin cfg0.N) (hf : (cfg0.win 4).flush t = true) :
    (dats m 0 c).flushed 4 t = ((cfg0.win 4).blk t).view.read (Elt Ideal) (Cert.Moe.out (X m c) (W1 m c) (W3 m c) (W2 m c)) := by
  have h1 : t.val % 11 = 10 := (flush0_4 t).mp hf
  show (cfg0.win 4).cut (grid0.coords t) ((dats m 0 c).after 4 t) = _
  rw [after0_4]
  funext y
  obtain ⟨u, p, q, rfl⟩ : ∃ (u : Fin 1) (p : Fin 512) (q : Fin 2048), y = ix3 u p q := ⟨y 0, y 1, y 2, eq_ix3 y⟩
  rw [View.read_apply]
  show (outsAt0 m c t.val t.isLt).1 (ix3 u p q) = Cert.Moe.out (X m c) (W1 m c) (W3 m c) (W2 m c) (((cfg0.win 4).blk t).view.emb (ix3 u p q))
  have hemb : ((cfg0.win 4).blk t).view.emb (ix3 u p q) = ix3 (eOf t.val (lt176 t)) (tokOf t.val (lt176 t) p) q :=
    funext fun a => Fin.ext (by
      have hu : u.val = 0 := by omega
      match a with
      | ⟨0, _⟩ => show win0_4.index t 0 * 1 + 1 * u.val = t.val / 22; rw [(idx4 t).1]; omega
      | ⟨1, _⟩ => show win0_4.index t 1 * 512 + 1 * p.val = t.val / 11 % 2 * 512 + p.val; rw [(idx4 t).2.1]; omega
      | ⟨2, _⟩ => show win0_4.index t 2 * 2048 + 1 * q.val = q.val; rw [(idx4 t).2.2]; omega)
  rw [hemb, Cert.Moe.out_ix3]
  exact Accum.out_eq m c t h1 u p q

/-- An entry of the array is in a point's output block iff each coordinate is in the block's range. -/
theorem mem_blk (t : Fin cfg0.N) (i : S8x1024x2048.Idx) :
    i ∈ ((cfg0.win 4).blk t).view.set ↔ ∀ a : Fin 3, win0_4.index t a * S1x512x2048.size a ≤ (i a).val
      ∧ (i a).val < win0_4.index t a * S1x512x2048.size a + S1x512x2048.size a := by
  show i ∈ ((View.whole main_v5).slice (win0_4.rect t)).set ↔ _
  rw [View.set_slice_whole, Rect.mem_set_unit]
  exact Iff.rfl

/-- Every entry is written: row r of expert e by the last point of token tile r / 512 of expert e. -/
theorem cover (i : S8x1024x2048.Idx) :
    ∃ t : Fin cfg0.N, (cfg0.win 4).flush t = true ∧ i ∈ ((cfg0.win 4).blk t).view.set := by
  have h0 : (i 0).val < 8 := (i 0).isLt
  have h1 : (i 1).val < 1024 := (i 1).isLt
  have h2 : (i 2).val < 2048 := (i 2).isLt
  have hN : cfg0.N = 176 := N_0
  let t : Fin cfg0.N := ⟨(i 0).val * 22 + (i 1).val / 512 * 11 + 10, by rw [hN]; omega⟩
  have hv : t.val = (i 0).val * 22 + (i 1).val / 512 * 11 + 10 := rfl
  refine ⟨t, (flush0_4 t).mpr (by rw [hv]; omega), ?_⟩
  rw [mem_blk]
  obtain ⟨e0, e1, e2⟩ := idx4 t
  intro a
  match a with
  | ⟨0, _⟩ => show win0_4.index t 0 * 1 ≤ (i 0).val ∧ (i 0).val < win0_4.index t 0 * 1 + 1; rw [e0, hv]; omega
  | ⟨1, _⟩ => show win0_4.index t 1 * 512 ≤ (i 1).val ∧ (i 1).val < win0_4.index t 1 * 512 + 512; rw [e1, hv]; omega
  | ⟨2, _⟩ => show win0_4.index t 2 * 2048 ≤ (i 2).val ∧ (i 2).val < win0_4.index t 2 * 2048 + 2048; rw [e2]; omega

/-- After the region the output array holds the gated expert product. -/
theorem final (c : Dev nD) : (dats m 0 c).arrAt 4 cfg0.N = (Cert.Moe.out (X m c) (W1 m c) (W3 m c) (W2 m c)) :=
  (dats m 0 c).arrAt_eq_of_cover 4 (Cert.Moe.out (X m c) (W1 m c) (W3 m c) (W2 m c)) (flushed_eq m c) cover

/-- The program's last line regroups it. -/
theorem tail_eq (c : Dev nD) :
    Pipeline.afterTail₀ cfgs (dats m) 0 (V0 m) [hostOps1] c main_v6
      = shapeCast S8192x2048 (Cert.Moe.out (X m c) (W1 m c) (W3 m c) (W2 m c)) shapeCasts_S8x1024x2048_S8192x2048 := by
  unfold Pipeline.afterTail₀
  show StableHlo.after hostOps1 _ (Proc.devRef .tc main_v6) = _
  after_results
  show shapeCast S8192x2048
      (Pipeline.withArrays spec0 c (V0 m c) (fun w => (dats m 0 c).arrAt w cfg0.N) (Proc.devRef .tc (Pipeline.arrRef spec0 4)))
      shapeCasts_S8x1024x2048_S8192x2048 = _
  rw [Pipeline.withArrays_arr spec0 launch0.win.arr_inj c _ _ 4, final m c]

/-! ### The arrays the region is given are the program's arguments -/

theorem X_eq (c : Dev nD) :
    X m c = shapeCast S8x1024x2048 (m ((c.tc : Thread nD τ).loc main_arg0)) shapeCasts_S8192x2048_S8x1024x2048 := by
  unfold X
  show StableHlo.after hostOps0 (fun b => m (c, b)) (Proc.devRef .tc main_v1) = _
  after_results
  rfl

theorem W1_eq (c : Dev nD) : W1 m c = (m ((c.tc : Thread nD τ).loc main_arg2)) := by
  unfold W1
  show StableHlo.after hostOps0 (fun b => m (c, b)) (Proc.devRef .tc main_v2) = _
  after_results
  rfl

theorem W3_eq (c : Dev nD) : W3 m c = (m ((c.tc : Thread nD τ).loc main_arg3)) := by
  unfold W3
  show StableHlo.after hostOps0 (fun b => m (c, b)) (Proc.devRef .tc main_v3) = _
  after_results
  rfl

theorem W2_eq (c : Dev nD) : W2 m c = (m ((c.tc : Thread nD τ).loc main_arg4)) := by
  unfold W2
  show StableHlo.after hostOps0 (fun b => m (c, b)) (Proc.devRef .tc main_v4) = _
  after_results
  rfl

/-- The program's result as a function of its arguments: the tokens regrouped by expert, the gated expert product,
    regrouped back. -/
def result (c : Dev nD) : Buf (Elt Ideal) ((c.tc : Thread nD τ).loc main_v6) :=
  shapeCast S8192x2048
    (Cert.Moe.out (shapeCast S8x1024x2048 (m ((c.tc : Thread nD τ).loc main_arg0)) shapeCasts_S8192x2048_S8x1024x2048) (m ((c.tc : Thread nD τ).loc main_arg2)) (m ((c.tc : Thread nD τ).loc main_arg3)) (m ((c.tc : Thread nD τ).loc main_arg4)))
    shapeCasts_S8x1024x2048_S8192x2048

theorem tail_result (c : Dev nD) :
    Pipeline.afterTail₀ cfgs (dats m) 0 (V0 m) [hostOps1] c main_v6 = result m c := by
  rw [tail_eq, X_eq, W1_eq, W3_eq, W2_eq]
  rfl

/-- Every execution of the program ends with its result at that function of its arguments, the arguments unchanged. -/
theorem run : θ_run defs (onTc (τ := τ) (main (F := Ideal))) ⟨m, fun _ => 0, ρ⟩ fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨((h c).2 main_v6 (Pipeline.mem_restRefs_of main_v6 (by decide) (by decide))).trans (tail_result m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c),
        ((h c).2 main_arg3 (Pipeline.mem_restRefs_of main_arg3 (by decide) (by decide))).trans (W_main_arg3 m (dats m) c),
        ((h c).2 main_arg4 (Pipeline.mem_restRefs_of main_arg4 (by decide) (by decide))).trans (W_main_arg4 m (dats m) c)⟩)
    (run_main m ρ)

end Cert.KernelIdeal.Final

end
-- ==== Proof.lean ====
/-
  The two programs compute the same mixture-of-experts feed-forward layer.

  8192 tokens of 2048 features are sorted by expert, 1024 to each of 8 experts. For expert e, token t, hidden unit h:
      p = Σ_k x(e,t,k) · w1(e,h,k),     q = Σ_k x(e,t,k) · w3(e,h,k),     a(e,t,h) = (p · σ(p)) · q,     σ(p) = 1 / (1 + e^(−p)),
  and the result is  out(e,t,d) = Σ_h a(e,t,h) · w2(e,d,h)  over the 5632 hidden units, regrouped as [8192, 2048].

  The reference takes the three contractions whole. The kernel walks a grid of 8 experts × 2 token tiles × 11 hidden
  tiles; at each point it forms the two projections of a 512-token tile onto 512 hidden units, gates them, contracts with
  the matching 512 columns of w2 and adds the [512, 2048] partial result to an accumulator, zeroed at the first hidden
  tile and copied to the output after the last. On the extended reals the narrowing of operands to a shorter float format
  is the identity and each product is an exact sum, so after hidden tile hi the accumulator is the sum of the first
  512·(hi + 1) hidden units' terms, and after the last it is the whole sum: regrouping a sum uses only commutativity and
  associativity of +, which hold at infinite values too, so no finiteness of the inputs is used. The logistic function
  is, by definition, the quotient the reference spells, its literal being the number one.

  The modules: Spec (the function and its partial sums), RefSide (the reference computes it), Pieces (what each control
  case of the kernel's body leaves, as values), Payload (the body's arithmetic at an index), Blocks (which entries a grid
  point's blocks hold), Accum (the accumulator after each point), Final (the output array, the last regrouping, the run).
  The three frame claims are the generated frame proofs and the reference's run; the idealization rewrote nothing.
-/
import proofs.«130477_j644245095186_1_alg».proof.Defs
import proofs.«130477_j644245095186_1_alg».proof.Proof.Gen.Kernel
import proofs.«130477_j644245095186_1_alg».proof.Proof.Gen.Kernel.Skeleton
import proofs.«130477_j644245095186_1_alg».proof.Proof.Gen.Kernel.Launch
import proofs.«130477_j644245095186_1_alg».proof.Proof.Gen.Kernel.Points
import proofs.«130477_j644245095186_1_alg».proof.Proof.Gen.Kernel.Frame
import proofs.«130477_j644245095186_1_alg».proof.Proof.Gen.KernelIdeal
import proofs.«130477_j644245095186_1_alg».proof.Proof.Gen.KernelIdeal.Skeleton
import proofs.«130477_j644245095186_1_alg».proof.Proof.Gen.KernelIdeal.Launch
import proofs.«130477_j644245095186_1_alg».proof.Proof.Gen.KernelIdeal.Points
import proofs.«130477_j644245095186_1_alg».proof.Proof.Gen.KernelIdeal.Frame
import proofs.«130477_j644245095186_1_alg».proof.Proof.Gen.ReferenceIdeal
import proofs.«130477_j644245095186_1_alg».proof.Proof.Gen.ReferenceIdeal.Run
import proofs.«130477_j644245095186_1_alg».proof.Proof.Gen.ReferenceIdeal.Read
import proofs.«130477_j644245095186_1_alg».proof.Proof.Gen.Pre_finite_inputs
import proofs.«130477_j644245095186_1_alg».proof.Proof.RefSide
import proofs.«130477_j644245095186_1_alg».proof.Proof.Final
import Idealize.ShloMosaic.Adequacy
import Idealize.ShloMosaic.Init

noncomputable section

namespace Cert.Proof

open Idealize.ShloMosaic Idealize.SL.Sem

/-- The kernel's program runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree both programs end with the gated expert product of the regrouped tokens and the three
    weight arrays, regrouped back: the kernel by its accumulation over hidden tiles, the reference operation by
    operation. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq]
  unfold Cert.ReferenceIdeal.Read.val_main_v6
  rw [Cert.Moe.Ref.v5_eq, (hagree c).1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
